-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.sign_bit.Statement Cert.KernelIdeal.S256x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel

variable [Facts]

def fn {F : FTy → Type} [FloatOps F] (main_arg0 : FVec F S16x4096x1024 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  main_v3
-- ==== Kernel.lean ====
abbrev S16x4096x1024 : Shape := ⟨3, ![16, 4096, 1024]⟩
abbrev S65536x1024 : Shape := ⟨2, ![65536, 1024]⟩
abbrev S256x1024 : Shape := ⟨2, ![256, 1024]⟩

abbrev nBuf : Space → Nat
  | .hbm => 4
  | .vmem => 4
  | .smem => 0
  | _ => 0

abbrev bufTy : (tb : Table) → Fin (tcTables nBuf tb) → BufTy
  | .hbm, ⟨0, _⟩ => ⟨S16x4096x1024, .f32⟩
  | .hbm, ⟨1, _⟩ => ⟨S65536x1024, .f32⟩
  | .hbm, ⟨2, _⟩ => ⟨S65536x1024, .f32⟩
  | .hbm, ⟨3, _⟩ => ⟨S16x4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x4096x1024_S65536x1024 : S16x4096x1024.ShapeCasts S65536x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  shapeCasts_S65536x1024_S16x4096x1024 : S65536x1024.ShapeCasts S16x4096x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S65536x1024.size a
  hwx0_0 : ∀ i : grid0.Coords, EltTy.bits .f32 = 32 ∨ (Rect.block (s := S65536x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S65536x1024.size a
  hwx0_1 : ∀ i : grid0.Coords, EltTy.bits .f32 = 32 ∨ (Rect.block (s := S65536x1024) S256x1024.size (cc0_transform_1 i) (hinb0_1 i)).WholeWords (EltTy.packing .f32)

variable [Facts₀]

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x4096x1024 : Shape := ⟨3, ![16, 4096, 1024]⟩
abbrev S_ : Shape := ⟨0, ![]⟩

abbrev nBuf : Space → Nat
  | .hbm => 84
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .f32⟩
  | .hbm, ⟨2, _⟩ => ⟨S_, .f32⟩
  | .hbm, ⟨3, _⟩ => ⟨S16x4096x1024, .f32⟩
  | .hbm, ⟨4, _⟩ => ⟨S16x4096x1024, .f32⟩
  | .hbm, ⟨5, _⟩ => ⟨S16x4096x1024, .f32⟩
  | .hbm, ⟨6, _⟩ => ⟨S_, .f32⟩
  | .hbm, ⟨7, _⟩ => ⟨S16x4096x1024, .f32⟩
  | .hbm, ⟨8, _⟩ => ⟨S16x4096x1024, .f32⟩
  | .hbm, ⟨9, _⟩ => ⟨S_, .f32⟩
  | .hbm, ⟨10, _⟩ => ⟨S16x4096x1024, .f32⟩
  | .hbm, ⟨11, _⟩ => ⟨S16x4096x1024, .f32⟩
  | .hbm, ⟨12, _⟩ => ⟨S16x4096x1024, .f32⟩
  | .hbm, ⟨13, _⟩ => ⟨S_, .f32⟩
  | .hbm, ⟨14, _⟩ => ⟨S16x4096x1024, .f32⟩
  | .hbm, ⟨15, _⟩ => ⟨S16x4096x1024, .f32⟩
  | .hbm, ⟨16, _⟩ => ⟨S16x4096x1024, .f32⟩
  | .hbm, ⟨17, _⟩ => ⟨S_, .f32⟩
  | .hbm, ⟨18, _⟩ => ⟨S16x4096x1024, .f32⟩
  | .hbm, ⟨19, _⟩ => ⟨S16x4096x1024, .f32⟩
  | .hbm, ⟨20, _⟩ => ⟨S16x4096x1024, .f32⟩
  | .hbm, ⟨21, _⟩ => ⟨S_, .f32⟩
  | .hbm, ⟨22, _⟩ => ⟨S16x4096x1024, .f32⟩
  | .hbm, ⟨23, _⟩ => ⟨S16x4096x1024, .f32⟩
  | .hbm, ⟨24, _⟩ => ⟨S16x4096x1024, .f32⟩
  | .hbm, ⟨25, _⟩ => ⟨S_, .f32⟩
  | .hbm, ⟨26, _⟩ => ⟨S16x4096x1024, .f32⟩
  | .hbm, ⟨27, _⟩ => ⟨S16x4096x1024, .f32⟩
  | .hbm, ⟨28, _⟩ => ⟨S16x4096x1024, .f32⟩
  | .hbm, ⟨29, _⟩ => ⟨S_, .f32⟩
  | .hbm, ⟨30, _⟩ => ⟨S16x4096x1024, .f32⟩
  | .hbm, ⟨31, _⟩ => ⟨S16x4096x1024, .f32⟩
  | .hbm, ⟨32, _⟩ => ⟨S16x4096x1024, .f32⟩
  | .hbm, ⟨33, _⟩ => ⟨S16x4096x1024, .f32⟩
  | .hbm, ⟨34, _⟩ => ⟨S16x4096x1024, .f32⟩
  | .hbm, ⟨35, _⟩ => ⟨S16x4096x1024, .f32⟩
  | .hbm, ⟨36, _⟩ => ⟨S_, .f32⟩
  | .hbm, ⟨37, _⟩ => ⟨S16x4096x1024, .f32⟩
  | .hbm, ⟨38, _⟩ => ⟨S16x4096x1024, .f32⟩
  | .hbm, ⟨39, _⟩ => ⟨S_, .f32⟩
  | .hbm, ⟨40, _⟩ => ⟨S16x4096x1024, .f32⟩
  | .hbm, ⟨41, _⟩ => ⟨S16x4096x1024, .f32⟩
  | .hbm, ⟨42, _⟩ => ⟨S_, .f32⟩
  | .hbm, ⟨43, _⟩ => ⟨S16x4096x1024, .f32⟩
  | .hbm, ⟨44, _⟩ => ⟨S16x4096x1024, .f32⟩
  | .hbm, ⟨45, _⟩ => ⟨S_, .f32⟩
  | .hbm, ⟨46, _⟩ => ⟨S16x4096x1024, .f32⟩
  | .hbm, ⟨47, _⟩ => ⟨S16x4096x1024, .f32⟩
  | .hbm, ⟨48, _⟩ => ⟨S16x4096x1024, .f32⟩
  | .hbm, ⟨49, _⟩ => ⟨S_, .f32⟩
  | .hbm, ⟨50, _⟩ => ⟨S16x4096x1024, .f32⟩
  | .hbm, ⟨51, _⟩ => ⟨S16x4096x1024, .f32⟩
  | .hbm, ⟨52, _⟩ => ⟨S16x4096x1024, .f32⟩
  | .hbm, ⟨53, _⟩ => ⟨S_, .f32⟩
  | .hbm, ⟨54, _⟩ => ⟨S16x4096x1024, .f32⟩
  | .hbm, ⟨55, _⟩ => ⟨S16x4096x1024, .f32⟩
  | .hbm, ⟨56, _⟩ => ⟨S16x4096x1024, .f32⟩
  | .hbm, ⟨57, _⟩ => ⟨S_, .f32⟩
  | .hbm, ⟨58, _⟩ => ⟨S16x4096x1024, .f32⟩
  | .hbm, ⟨59, _⟩ => ⟨S16x4096x1024, .f32⟩
  | .hbm, ⟨60, _⟩ => ⟨S16x4096x1024, .f32⟩
  | .hbm, ⟨61, _⟩ => ⟨S_, .f32⟩
  | .hbm, ⟨62, _⟩ => ⟨S16x4096x1024, .f32⟩
  | .hbm, ⟨63, _⟩ => ⟨S16x4096x1024, .f32⟩
  | .hbm, ⟨64, _⟩ => ⟨S16x4096x1024, .f32⟩
  | .hbm, ⟨65, _⟩ => ⟨S_, .f32⟩
  | .hbm, ⟨66, _⟩ => ⟨S16x4096x1024, .f32⟩
  | .hbm, ⟨67, _⟩ => ⟨S16x4096x1024, .f32⟩
  | .hbm, ⟨68, _⟩ => ⟨S16x4096x1024, .f32⟩
  | .hbm, ⟨69, _⟩ => ⟨S_, .f32⟩
  | .hbm, ⟨70, _⟩ => ⟨S16x4096x1024, .f32⟩
  | .hbm, ⟨71, _⟩ => ⟨S16x4096x1024, .f32⟩
  | .hbm, ⟨72, _⟩ => ⟨S16x4096x1024, .f32⟩
  | .hbm, ⟨73, _⟩ => ⟨S_, .f32⟩
  | .hbm, ⟨74, _⟩ => ⟨S16x4096x1024, .f32⟩
  | .hbm, ⟨75, _⟩ => ⟨S16x4096x1024, .f32⟩
  | .hbm, ⟨76, _⟩ => ⟨S16x4096x1024, .f32⟩
  | .hbm, ⟨77, _⟩ => ⟨S16x4096x1024, .f32⟩
  | .hbm, ⟨78, _⟩ => ⟨S_, .f32⟩
  | .hbm, ⟨79, _⟩ => ⟨S16x4096x1024, .f32⟩
  | .hbm, ⟨80, _⟩ => ⟨S16x4096x1024, .i1⟩
  | .hbm, ⟨81, _⟩ => ⟨S16x4096x1024, .f32⟩
  | .hbm, ⟨82, _⟩ => ⟨S16x4096x1024, .f32⟩
  | .hbm, ⟨83, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_4 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_5 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_6 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_7 : Ref sig .tc := ⟨.hbm, 36, rfl⟩
abbrev main_v27 : Ref sig .tc := ⟨.hbm, 37, rfl⟩
abbrev main_v28 : Ref sig .tc := ⟨.hbm, 38, rfl⟩
abbrev main_cst_8 : Ref sig .tc := ⟨.hbm, 39, rfl⟩
abbrev main_v29 : Ref sig .tc := ⟨.hbm, 40, rfl⟩
abbrev main_v30 : Ref sig .tc := ⟨.hbm, 41, rfl⟩
abbrev main_cst_9 : Ref sig .tc := ⟨.hbm, 42, rfl⟩
abbrev main_v31 : Ref sig .tc := ⟨.hbm, 43, rfl⟩
abbrev main_v32 : Ref sig .tc := ⟨.hbm, 44, rfl⟩
abbrev main_cst_10 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_11 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_12 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_13 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_14 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_15 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_16 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_17 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_18 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]

class Facts₀ : Prop where
  bcast_S_S16x4096x1024 : S_.BroadcastsInDim S16x4096x1024 (![] : Fin 0 → Fin S16x4096x1024.rank)

variable [Facts₀]

class Facts : Prop extends Facts₀ where

variable [Facts]
-- ==== Proof.BesselScalar.lean ====
/-
  The exponentially scaled modified Bessel function of order one, i1e(x) = e^(-|x|) · I1(x), by the two classical
  rational approximations, as ONE function on the extended reals. With a = |x| and the knee at 3.75:

    a ≤ 3.75 :  a · P(u) · e^(-a),        u = (a / 3.75)²,          P of degree six,
    a > 3.75 :  Q(w) / √(max a 3.75),      w = 3.75 / max a 3.75,    Q of degree eight,

  and i1e(x) = sign(x) · (that value at a = |x|): the function is odd. Every coefficient is the binary32 word the
  programs carry; a word is never evaluated here, only the words of 0, 1 and -1 that the sign is spelt with.

  Two spellings meet at this function. A negation may be written 0 - a; on the extended reals 0 - a = -a everywhere.
  And the sign of x may be written by two comparisons, "if |x| > 0 then (if x < 0 then -1 else 1) else x": at a nonzero
  finite x and at either infinity the inner choice is the sign, and at x = 0 the outer choice returns x = 0 itself.
-/
import Idealize.ShloMosaic.PureOps.Ideal
import Idealize.ShloMosaic.PureOps.Ideal.Laws
import Idealize.ShloMosaic.PureOps.IdealRules
import Idealize.ShloMosaic.Lib.ValueIdx
import Idealize.ShloMosaic.Lib.IdealHost

noncomputable section

namespace Cert.Bessel

open Idealize.ShloMosaic

/-- The knee between the two approximations: 3.75. -/
def knee : EReal := Ideal.ofBits .f32 0x40700000#32

/-- The series branch's polynomial, degree six, in Horner form. -/
def seriesPoly (u : EReal) : EReal :=
  (((((Ideal.ofBits .f32 0x39A9ED4F#32 * u + Ideal.ofBits .f32 0x3B459CAD#32) * u + Ideal.ofBits .f32 0x3CD9CDAC#32) * u
    + Ideal.ofBits .f32 0x3E1A7840#32) * u + Ideal.ofBits .f32 0x3F03D64C#32) * u + Ideal.ofBits .f32 0x3F60FFFB#32) * u
    + Ideal.ofBits .f32 0x3F000000#32

/-- The series branch at a = |x|: a · P((a / 3.75)²) · e^(-a). -/
def series (a : EReal) : EReal :=
  a * seriesPoly (Ideal.div a knee * Ideal.div a knee) * Ideal.exp (-a)

/-- The asymptotic branch's polynomial, degree eight, in Horner form. -/
def asymPoly (w : EReal) : EReal :=
  (((((((Ideal.ofBits .f32 0xBB89A51A#32 * w + Ideal.ofBits .f32 0x3C9271D2#32) * w + Ideal.ofBits .f32 0xBCED2F18#32) * w
    + Ideal.ofBits .f32 0x3CBB054A#32) * w + Ideal.ofBits .f32 0xBC29028D#32) * w + Ideal.ofBits .f32 0x3AD6B27F#32) * w
    + Ideal.ofBits .f32 0xBB6D408B#32) * w + Ideal.ofBits .f32 0xBD235976#32) * w + Ideal.ofBits .f32 0x3ECC422A#32

/-- The asymptotic branch at a = |x|, the argument kept at or above the knee: Q(3.75 / b) / √b, b = max a 3.75. -/
def asym (a : EReal) : EReal :=
  Ideal.div (asymPoly (Ideal.div knee (max a knee))) (Ideal.sqrt (max a knee))

/-- The value at a = |x|: the series up to the knee, the asymptotic form beyond it. -/
def magnitude (a : EReal) : EReal := if a ≤ knee then series a else asym a

/-- i1e on the extended reals: odd, sign(x) times the value at |x| = max x (-x). -/
def i1e (x : EReal) : EReal := Ideal.sign x * magnitude (max x (-x))

/-- The word of -1.0, one's word with the sign bit set, is the extended real -1. -/
theorem ofBits_neg_one_f32 : Ideal.ofBits .f32 0xBF800000#32 = -1 :=
  IdealRules.sign_bit.ideal_negOnePat .f32

/-- A choice on a comparison's bit is the choice on the comparison. -/
theorem select_ofBool {α : Type} (p : Prop) [Decidable p] (a b : α) :
    Scalar.select (BitVec.ofBool (decide p)) a b = if p then a else b := by
  unfold Scalar.select
  by_cases h : p <;> simp [h]

/-- The sign spelt by two comparisons is the sign: at a nonzero finite x and at the infinities |x| > 0 and the inner
    choice is -1 below zero and 1 above; at x = 0 the outer choice returns x, which is 0. -/
theorem sign_by_comparisons (x : EReal) :
    (if 0 < max x (-x) then (if x < 0 then (-1 : EReal) else 1) else x) = Ideal.sign x := by
  induction x using EReal.rec with
  | bot => rw [Ideal.sign_bot]; simp
  | top => rw [Ideal.sign_top]; simp
  | coe r =>
    rw [Ideal.sign_coe]
    rcases lt_trichotomy r 0 with h | h | h
    · have h1 : (0 : EReal) < max (r : EReal) (-(r : EReal)) := by
        rw [lt_max_iff]; right
        rw [← EReal.coe_neg]; exact_mod_cast (neg_pos.mpr h)
      have h2 : (r : EReal) < 0 := by exact_mod_cast h
      rw [if_pos h1, if_pos h2, sign_neg h]; simp
    · subst h; simp
    · have h1 : (0 : EReal) < max (r : EReal) (-(r : EReal)) := by
        rw [lt_max_iff]; left; exact_mod_cast h
      have h2 : ¬ (r : EReal) < 0 := by
        rw [not_lt]; exact_mod_cast h.le
      rw [if_pos h1, if_neg h2, sign_pos h]; simp

end Cert.Bessel

end
-- ==== Proof.ReferenceValue.lean ====
/-
  The reference computes i1e element by element. Its eighty-odd host operations are all pointwise (a scalar constant
  broadcast to the array reads that scalar at every index), so the result at an index i depends on the argument at i
  alone: |x| by the host's abs, (|x| / 3.75)² and the degree-six Horner chain, e^(-|x|) through the host's negate,
  the clamp max |x| 3.75, its reciprocal ratio and the degree-eight chain over √ of the clamp, the choice on
  |x| ≤ 3.75, and the host's sign. On the extended reals each host operation is the textbook one, so the composite
  is the function `Cert.Bessel.i1e` of the element, with nothing to prove beyond reading the operations one at a time.
-/
import proofs.«172067_j36197984370718_1_alg».proof.Proof.Gen.ReferenceIdeal.Read
import proofs.«172067_j36197984370718_1_alg».proof.Proof.BesselScalar
import Idealize.ShloMosaic.PureOps.Ideal.Laws

noncomputable section

namespace Cert.Bessel.Reference

open Idealize.ShloMosaic Cert.ReferenceIdeal Cert.ReferenceIdeal.Read Cert.Bessel

/-- The reference's result at an index is i1e of the argument there. -/
theorem result_apply (x : S16x4096x1024.Idx → Ideal .f32) (i : S16x4096x1024.Idx) :
    val_main_v62 (F := Ideal) x i = i1e (x i) := by
  simp only [val_main_v62_apply, val_main_v61_apply, val_main_v60_apply, val_main_v59_apply, val_main_v58_apply, val_main_cst_18_apply, val_main_v57_apply, val_main_v56_apply, val_main_v55_apply, val_main_v54_apply, val_main_cst_17_apply, val_main_v53_apply, val_main_v52_apply, val_main_v51_apply, val_main_cst_16_apply, val_main_v50_apply, val_main_v49_apply, val_main_v48_apply, val_main_cst_15_apply, val_main_v47_apply, val_main_v46_apply, val_main_v45_apply, val_main_cst_14_apply, val_main_v44_apply, val_main_v43_apply, val_main_v42_apply, val_main_cst_13_apply, val_main_v41_apply, val_main_v40_apply, val_main_v39_apply, val_main_cst_12_apply, val_main_v38_apply, val_main_v37_apply, val_main_v36_apply, val_main_cst_11_apply, val_main_v35_apply, val_main_v34_apply, val_main_v33_apply, val_main_cst_10_apply, val_main_v32_apply, val_main_v31_apply, val_main_cst_9_apply, val_main_v30_apply, val_main_v29_apply, val_main_cst_8_apply, val_main_v28_apply, val_main_v27_apply, val_main_cst_7_apply, val_main_v26_apply, val_main_v25_apply, val_main_v24_apply, val_main_v23_apply, val_main_v22_apply, val_main_v21_apply, val_main_cst_6_apply, val_main_v20_apply, val_main_v19_apply, val_main_v18_apply, val_main_cst_5_apply, val_main_v17_apply, val_main_v16_apply, val_main_v15_apply, val_main_cst_4_apply, val_main_v14_apply, val_main_v13_apply, val_main_v12_apply, val_main_cst_3_apply, val_main_v11_apply, val_main_v10_apply, val_main_v9_apply, val_main_cst_2_apply, val_main_v8_apply, val_main_v7_apply, val_main_v6_apply, val_main_cst_1_apply, val_main_v5_apply, val_main_v4_apply, val_main_cst_0_apply, val_main_v3_apply, val_main_v2_apply, val_main_v1_apply, val_main_cst_apply, val_main_v0_apply]
  simp only [Ideal.ofBits_def, Ideal.mulf_def, Ideal.addf_def, Ideal.hostDivf_def, Ideal.hostUnary_exp_def,
    Ideal.hostUnary_sqrt_def, Ideal.hostUnary_sign_def, Ideal.hostNegf_def, Ideal.negf_def, Ideal.hostAbsf_def,
    Ideal.absf_def, Ideal.maximumf_def, Ideal.cmpf_def, Ideal.cmp, select_ofBool]
  rfl

/-- The reference's result array is i1e of the argument array, index by index. -/
theorem result_eq (x : S16x4096x1024.Idx → Ideal .f32) :
    val_main_v62 (F := Ideal) x = fun i => i1e (x i) :=
  funext fun i => result_apply x i

end Cert.Bessel.Reference

end
-- ==== Proof.KernelPayload.lean ====
/-
  What the kernel body stores, read at one element. The body loads a block, and everything it computes from it is
  pointwise: |z|, (|z| / 3.75)² and the degree-six Horner chain, e^(0 - |z|), the clamp max |z| 3.75, the ratio
  3.75 / clamp and the degree-eight chain over √ of the clamp, the choice on |z| ≤ 3.75, and a sign written with two
  comparisons. So the stored block at an index j is a function of the loaded block at j alone, and on the extended
  reals that function is `Cert.Bessel.i1e`: the negation 0 - a is -a, and the two-comparison sign is the sign
  (BesselScalar). A shape cast to the same shape changes nothing.
-/
import proofs.«172067_j36197984370718_1_alg».proof.Proof.Gen.KernelIdeal.Skeleton
import proofs.«172067_j36197984370718_1_alg».proof.Proof.BesselScalar
import Idealize.ShloMosaic.Lib.Pipeline.Value
import Idealize.ShloMosaic.Lib.ValueIdx
import Idealize.ShloMosaic.PureOps.Ideal.Laws

noncomputable section

namespace Cert.Bessel.Kernel

open Idealize.ShloMosaic Idealize.ShloMosaic.ValueIdx Cert.KernelIdeal Cert.KernelIdeal.Gen Cert.Bessel

/-- The stored block at an index is i1e of the loaded block there. -/
theorem stored_apply (v : Vec Ideal S256x1024 .f32) (j : S256x1024.Idx) :
    k0_pay1 (F := Ideal) (k0_pay2 v) (k0_pay3 v) (k0_pay4 v) (k0_pay5 v) (k0_pay6 v) (k0_pay7 v)
        (Scalar.ofBits .f32 0x3CBB054A#32) j = i1e (v j) := by
  unfold k0_pay1 k0_pay4 k0_pay7 k0_pay6 k0_pay5 k0_pay3 k0_pay2
  simp only [shapeCast_self]
  simp only [mulf, addf, subf, divf, absf, exp, sqrt, maximumf, cmpf, select, broadcast, constant]
  simp only [Ideal.ofBits_def, Ideal.mulf_def, Ideal.addf_def, Ideal.subf_def, Ideal.divf_def, Ideal.exp_def,
    Ideal.sqrt_def, Ideal.absf_def, Ideal.maximumf_def, Ideal.cmpf_def, Ideal.cmp, select_ofBool]
  rw [Ideal.ofBits_zero_f32, Ideal.ofBits_one_f32, ofBits_neg_one_f32, zero_sub, sign_by_comparisons]
  rfl

/-- The stored block is i1e of the loaded block, index by index. -/
theorem stored_eq (v : Vec Ideal S256x1024 .f32) :
    k0_pay1 (F := Ideal) (k0_pay2 v) (k0_pay3 v) (k0_pay4 v) (k0_pay5 v) (k0_pay6 v) (k0_pay7 v)
        (Scalar.ofBits .f32 0x3CBB054A#32) = fun j => i1e (v j) :=
  funext fun j => stored_apply v j

end Cert.Bessel.Kernel

end
-- ==== Proof.KernelArray.lean ====
/-
  From the blocks to the whole result. The kernel's array is the argument reshaped to 65536 × 1024 (row-major, so the
  same elements in the same order); the grid's 256 points each take the 256 × 1024 block of rows 256·t … 256·t + 255,
  the output window with the same index map as the input window, so what point t writes back is i1e of exactly the
  rows it fetched. The blocks tile the array: row r lies in the block of point r / 256. Hence the region's array ends
  as i1e of the reshaped argument, element by element, and the closing reshape back to 16 × 4096 × 1024 undoes the
  opening one under a pointwise function: the result is i1e of the argument at every index.
-/
import proofs.«172067_j36197984370718_1_alg».proof.Proof.Gen.KernelIdeal.Frame
import proofs.«172067_j36197984370718_1_alg».proof.Proof.KernelPayload
import Idealize.ShloMosaic.Lib.Pipeline.Value
import Idealize.ShloMosaic.Lib.StableHlo.Run

set_option maxRecDepth 16384

noncomputable section

namespace Cert.Bessel.Kernel

open Idealize.ShloMosaic Idealize.ShloMosaic.TcCoe Idealize.SL.Sem
open Cert.KernelIdeal Cert.KernelIdeal.Gen Cert.Bessel
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- The region finds the argument reshaped to 65536 × 1024. -/
theorem entry_array (c : Dev nD) :
    (V m c main_v0 : S65536x1024.Idx → EReal)
      = shapeCast S65536x1024 (m ((c : Thread nD τ).loc main_arg0)) shapeCasts_S16x4096x1024_S65536x1024 := by
  show StableHlo.after hostOps0 (fun b => m (c, b)) (Proc.devRef .tc main_v0) = _
  after_results
  rfl

/-- The two windows move together: at point t both take block (t, 0). -/
theorem index_facts : ∀ t : Fin cfg0.N, win0_0.index t (0 : Fin 2) = win0_1.index t (0 : Fin 2)
    ∧ win0_0.index t (1 : Fin 2) = win0_1.index t (1 : Fin 2)
    ∧ win0_1.index t (0 : Fin 2) = t.val
    ∧ win0_1.index t (1 : Fin 2) = 0 :=
  (by decide +kernel : ∀ t : Fin grid0.N, _)

/-- What point t writes back is block t of i1e of the array the region found. -/
theorem written_back (c : Dev nD) (t : Fin cfg0.N) :
    (dats m 0 c).flushed 1 t = ((cfg0.win 1).blk t).view.read (Elt Ideal) (fun i => i1e (V m c main_v0 i)) := by
  show (cfg0.win 1).cut (grid0.coords t) ((dats m 0 c).after 1 t) = _
  rw [after0_1]
  unfold out0_1
  rw [View.canon_unit_zero offsets_zero]
  simp only [View.ld_unit_zero (S := S256x1024) offsets_zero]
  rw [stored_eq]
  obtain ⟨e0, e1, -, -⟩ := index_facts t
  funext j
  show i1e (V m c main_v0 (((cfg0.win 0).blk t).view.emb j)) = i1e (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 256 + 1 * (j 0).val = win0_1.index t (0 : Fin 2) * 256 + 1 * (j 0).val; omega
    | ⟨1, _⟩ => show win0_0.index t (1 : Fin 2) * 1024 + 1 * (j 1).val = win0_1.index t (1 : Fin 2) * 1024 + 1 * (j 1).val; omega
  rw [h0]

/-- An index of the array is in point t's block iff each coordinate is in the block's range on its axis. -/
theorem mem_block (t : Fin cfg0.N) (i : S65536x1024.Idx) :
    i ∈ ((cfg0.win 1).blk t).view.set ↔ ∀ a : Fin 2, win0_1.index t a * S256x1024.size a ≤ (i a).val
      ∧ (i a).val < win0_1.index t a * S256x1024.size a + S256x1024.size a := by
  show i ∈ ((View.whole main_v1).slice (win0_1.rect t)).set ↔ _
  rw [View.set_slice_whole, Rect.mem_set_unit]
  exact Iff.rfl

/-- The blocks tile the array: row r is in the block of point r / 256. -/
theorem covered (i : S65536x1024.Idx) :
    ∃ t : Fin cfg0.N, (cfg0.win 1).flush t = true ∧ i ∈ ((cfg0.win 1).blk t).view.set := by
  have hi0 : (i 0).val < 65536 := (i 0).isLt
  have hi1 : (i 1).val < 1024 := (i 1).isLt
  have hN : grid0.N = 256 := N_0
  have ht : (i 0).val / 256 < grid0.N := by omega
  obtain ⟨-, -, q0, q1⟩ := index_facts ⟨(i 0).val / 256, ht⟩
  refine ⟨⟨(i 0).val / 256, ht⟩, flush0_1 _, ?_⟩
  rw [mem_block]
  intro a
  match a with
  | ⟨0, _⟩ =>
    show win0_1.index ⟨(i 0).val / 256, ht⟩ (0 : Fin 2) * 256 ≤ (i 0).val
      ∧ (i 0).val < win0_1.index ⟨(i 0).val / 256, ht⟩ (0 : Fin 2) * 256 + 256
    have q0' : win0_1.index ⟨(i 0).val / 256, ht⟩ (0 : Fin 2) = (i 0).val / 256 := q0
    omega
  | ⟨1, _⟩ =>
    show win0_1.index ⟨(i 0).val / 256, ht⟩ (1 : Fin 2) * 1024 ≤ (i 1).val
      ∧ (i 1).val < win0_1.index ⟨(i 0).val / 256, ht⟩ (1 : Fin 2) * 1024 + 1024
    omega

/-- The region's array after the run: i1e of the array it found, element by element. -/
theorem region_array (c : Dev nD) :
    (dats m 0 c).arrAt 1 cfg0.N = fun i => i1e (V m c main_v0 i) :=
  (dats m 0 c).arrAt_eq_of_cover 1 _ (fun t _ => written_back m c t) covered

/-- The program's result: the closing reshape of the region's array is i1e of the argument at every index. -/
theorem result_array (c : Dev nD) :
    Pipeline.afterTail₀ cfgs (dats m) 0 (V0 m) [hostOps1] c main_v2
      = fun j => i1e (m ((c : Thread nD τ).loc main_arg0) j) := by
  unfold Pipeline.afterTail₀
  show StableHlo.after hostOps1 _ (Proc.devRef .tc main_v2) = _
  after_results
  have region : Pipeline.withArrays (cfgs 0).spec c (V0 m c) (fun w => (dats m 0 c).arrAt w (cfgs 0).N)
        (Proc.devRef .tc main_v1)
      = fun i => i1e (shapeCast S65536x1024 (m ((c : Thread nD τ).loc main_arg0))
          shapeCasts_S16x4096x1024_S65536x1024 i) :=
    ((Pipeline.withArrays_arr spec0 launch0.win.arr_inj c _ _ 1).trans (region_array m c)).trans
      (congrArg (fun (a : S65536x1024.Idx → EReal) => fun i => i1e (a i)) (entry_array m c))
  rw [region]
  funext j
  exact congrArg i1e (congrFun (shapeCast_shapeCast _ _ _) j)

/-- The run, read: every weakly fair execution ends with the result at i1e of the argument, index by index, and the
    argument as it was. -/
theorem run : θ_run defs (onTc (τ := τ) (main (F := Ideal))) ⟨m, fun _ => 0, ρ⟩ fun r => ∀ c : Dev nD,
      r.2.mem ((c : Thread nD τ).loc main_v2) = (fun j => i1e (m ((c : Thread nD τ).loc main_arg0) j))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_array m c),
       ((h c).2 main_arg0 (Pipeline.mem_restRefs_of main_arg0 (by decide) (by decide))).trans (W_main_arg0 m (dats m) c)⟩)
    (run_main m ρ)

end Cert.Bessel.Kernel

end
-- ==== Proof.lean ====
/- The kernel and the reference compute the exponentially scaled modified Bessel function of order one,
   i1e(x) = e^(-|x|) · I1(x), elementwise over a 16 × 4096 × 1024 array, by the same two rational approximations
   joined at |x| = 3.75 and made odd by a factor sign(x). The kernel works on the array reshaped to 65536 × 1024, a
   block of 256 rows per grid point, and reshapes the result back; the reference works on the array as it is.

   On the extended reals both results are ONE function of the argument, index by index: `Cert.Bessel.i1e` of the
   element (BesselScalar). The reference is that function because each of its host operations is the textbook one
   (ReferenceValue). The kernel's stored block is that function of its loaded block, where a negation written 0 - a
   is -a and a sign written by two comparisons is the sign (KernelPayload); its blocks tile the reshaped array, and
   a pointwise function commutes with reshaping there and back (KernelArray). No finiteness of the input is used:
   both laws hold at the infinities too.

   The three programs run, terminate and keep their argument (the frames); the idealized kernel differs from the
   kernel as printed by one sanctioned rewrite, "1.0 with z's sign bit" read as -1 below zero and 1 otherwise. -/
import proofs.«172067_j36197984370718_1_alg».proof.Defs
import proofs.«172067_j36197984370718_1_alg».proof.Proof.Gen.Kernel
import proofs.«172067_j36197984370718_1_alg».proof.Proof.Gen.Kernel.Skeleton
import proofs.«172067_j36197984370718_1_alg».proof.Proof.Gen.Kernel.Launch
import proofs.«172067_j36197984370718_1_alg».proof.Proof.Gen.Kernel.Points
import proofs.«172067_j36197984370718_1_alg».proof.Proof.Gen.Kernel.Frame
import proofs.«172067_j36197984370718_1_alg».proof.Proof.Gen.KernelIdeal
import proofs.«172067_j36197984370718_1_alg».proof.Proof.Gen.KernelIdeal.Skeleton
import proofs.«172067_j36197984370718_1_alg».proof.Proof.Gen.KernelIdeal.Launch
import proofs.«172067_j36197984370718_1_alg».proof.Proof.Gen.KernelIdeal.Points
import proofs.«172067_j36197984370718_1_alg».proof.Proof.Gen.KernelIdeal.Frame
import proofs.«172067_j36197984370718_1_alg».proof.Proof.Gen.ReferenceIdeal
import proofs.«172067_j36197984370718_1_alg».proof.Proof.Gen.ReferenceIdeal.Run
import proofs.«172067_j36197984370718_1_alg».proof.Proof.Gen.ReferenceIdeal.Read
import proofs.«172067_j36197984370718_1_alg».proof.Proof.Gen.Pre_finite_inputs
import proofs.«172067_j36197984370718_1_alg».proof.Proof.BesselScalar
import proofs.«172067_j36197984370718_1_alg».proof.Proof.ReferenceValue
import proofs.«172067_j36197984370718_1_alg».proof.Proof.KernelPayload
import proofs.«172067_j36197984370718_1_alg».proof.Proof.KernelArray
import Idealize.ShloMosaic.Adequacy
import Idealize.ShloMosaic.Init

noncomputable section

namespace Cert.Proof

open Idealize.ShloMosaic Idealize.SL.Sem

/-- The kernel as printed runs and keeps its argument. -/
theorem frame_kernel : Cert.frame_Kernel := fun m ρ _ => Cert.Kernel.Gen.frame m ρ

/-- The idealized kernel runs and keeps its argument. -/
theorem frame_kernelIdeal : Cert.frame_KernelIdeal := fun m ρ _ => Cert.KernelIdeal.Gen.frame m ρ

/-- The reference runs and keeps its argument: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: 1.0 carrying z's sign bit, read as -1 below zero and 1 at and above it. -/
theorem preserves : Cert.preserves_Kernel_KernelIdeal :=
  IdealRules.sign_bit.statement Cert.KernelIdeal.S256x1024 .f32

/-- From memories that agree on the argument, both programs end with i1e of the argument at every index. -/
theorem algebraic : Cert.algebraic_KernelIdeal_ReferenceIdeal := by
  intro m ρ m' ρ' _ hagree
  refine ⟨fun c => fun j => Cert.Bessel.i1e
      (m ((c.tc : Thread Cert.KernelIdeal.nD Cert.KernelIdeal.τ).loc Cert.KernelIdeal.main_arg0) j),
    Cert.Bessel.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v62_eq, Cert.Bessel.Reference.result_eq, hagree c]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
